-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3200000x2 : Shape := ⟨2, ![3200000, 2]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S3200000x2 32) (main_arg2 : FVec F S128x64 .f32) (main_arg3 : FVec F S64 .f32) (main_arg4 : FVec F S64x16 .f32) (main_arg5 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S100000x128 : Shape := ⟨2, ![100000, 128]⟩
abbrev S3200000x2 : Shape := ⟨2, ![3200000, 2]⟩
abbrev S128x64 : Shape := ⟨2, ![128, 64]⟩
abbrev S64 : Shape := ⟨1, ![64]⟩
abbrev S64x16 : Shape := ⟨2, ![64, 16]⟩
abbrev S16 : Shape := ⟨1, ![16]⟩
abbrev S3200000x1 : Shape := ⟨2, ![3200000, 1]⟩
abbrev S3200000 : Shape := ⟨1, ![3200000]⟩
abbrev S_ : Shape := ⟨0, ![]⟩
abbrev S100000 : Shape := ⟨1, ![100000]⟩
abbrev S100000x64 : Shape := ⟨2, ![100000, 64]⟩
abbrev S5000x128 : Shape := ⟨2, ![5000, 128]⟩
abbrev S5000x64 : Shape := ⟨2, ![5000, 64]⟩
abbrev S100000x1 : Shape := ⟨2, ![100000, 1]⟩
abbrev S3200000x64 : Shape := ⟨2, ![3200000, 64]⟩
abbrev S1x64 : Shape := ⟨2, ![1, 64]⟩
abbrev S100000x16 : Shape := ⟨2, ![100000, 16]⟩
abbrev S5000x16 : Shape := ⟨2, ![5000, 16]⟩
abbrev S3200000x16 : Shape := ⟨2, ![3200000, 16]⟩
abbrev S1x16 : Shape := ⟨2, ![1, 16]⟩

abbrev nBuf : Space → Nat
  | .hbm => 105
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S3200000x2, .i32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S3200000x1, .i32⟩
  | .hbm, ⟨7, _⟩ => ⟨S3200000, .i32⟩
  | .hbm, ⟨8, _⟩ => ⟨S3200000x1, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000, .f32⟩
  | .hbm, ⟨37, _⟩ => ⟨S_, .i32⟩
  | .hbm, ⟨38, _⟩ => ⟨S3200000, .i32⟩
  | .hbm, ⟨39, _⟩ => ⟨S3200000, .i1⟩
  | .hbm, ⟨40, _⟩ => ⟨S_, .i32⟩
  | .hbm, ⟨41, _⟩ => ⟨S3200000, .i32⟩
  | .hbm, ⟨42, _⟩ => ⟨S3200000, .i32⟩
  | .hbm, ⟨43, _⟩ => ⟨S3200000, .i32⟩
  | .hbm, ⟨44, _⟩ => ⟨S3200000x1, .i32⟩
  | .hbm, ⟨45, _⟩ => ⟨S3200000, .f32⟩
  | .hbm, ⟨46, _⟩ => ⟨S3200000, .f32⟩
  | .hbm, ⟨47, _⟩ => ⟨S100000x64, .f32⟩
  | .hbm, ⟨48, _⟩ => ⟨S100000x1, .f32⟩
  | .hbm, ⟨49, _⟩ => ⟨S100000x64, .f32⟩
  | .hbm, ⟨50, _⟩ => ⟨S100000x64, .f32⟩
  | .hbm, ⟨51, _⟩ => ⟨S3200000x1, .f32⟩
  | .hbm, ⟨52, _⟩ => ⟨S_, .i32⟩
  | .hbm, ⟨53, _⟩ => ⟨S3200000, .i32⟩
  | .hbm, ⟨54, _⟩ => ⟨S3200000, .i1⟩
  | .hbm, ⟨55, _⟩ => ⟨S_, .i32⟩
  | .hbm, ⟨56, _⟩ => ⟨S3200000, .i32⟩
  | .hbm, ⟨57, _⟩ => ⟨S3200000, .i32⟩
  | .hbm, ⟨58, _⟩ => ⟨S3200000, .i32⟩
  | .hbm, ⟨59, _⟩ => ⟨S3200000x1, .i32⟩
  | .hbm, ⟨60, _⟩ => ⟨S3200000x64, .f32⟩
  | .hbm, ⟨61, _⟩ => ⟨S3200000x64, .f32⟩
  | .hbm, ⟨62, _⟩ => ⟨S3200000x64, .f32⟩
  | .hbm, ⟨63, _⟩ => ⟨S_, .f32⟩
  | .hbm, ⟨64, _⟩ => ⟨S100000x64, .f32⟩
  | .hbm, ⟨65, _⟩ => ⟨S_, .i32⟩
  | .hbm, ⟨66, _⟩ => ⟨S3200000, .i32⟩
  | .hbm, ⟨67, _⟩ => ⟨S3200000, .i1⟩
  | .hbm, ⟨68, _⟩ => ⟨S_, .i32⟩
  | .hbm, ⟨69, _⟩ => ⟨S3200000, .i32⟩
  | .hbm, ⟨70, _⟩ => ⟨S3200000, .i32⟩
  | .hbm, ⟨71, _⟩ => ⟨S3200000, .i32⟩
  | .hbm, ⟨72, _⟩ => ⟨S3200000x1, .i32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x16, .f32⟩
  | .hbm, ⟨77, _⟩ => ⟨S100000x1, .f32⟩
  | .hbm, ⟨78, _⟩ => ⟨S100000x16, .f32⟩
  | .hbm, ⟨79, _⟩ => ⟨S100000x16, .f32⟩
  | .hbm, ⟨80, _⟩ => ⟨S3200000x1, .f32⟩
  | .hbm, ⟨81, _⟩ => ⟨S_, .i32⟩
  | .hbm, ⟨82, _⟩ => ⟨S3200000, .i32⟩
  | .hbm, ⟨83, _⟩ => ⟨S3200000, .i1⟩
  | .hbm, ⟨84, _⟩ => ⟨S_, .i32⟩
  | .hbm, ⟨85, _⟩ => ⟨S3200000, .i32⟩
  | .hbm, ⟨86, _⟩ => ⟨S3200000, .i32⟩
  | .hbm, ⟨87, _⟩ => ⟨S3200000, .i32⟩
  | .hbm, ⟨88, _⟩ => ⟨S3200000x1, .i32⟩
  | .hbm, ⟨89, _⟩ => ⟨S3200000x16, .f32⟩
  | .hbm, ⟨90, _⟩ => ⟨S3200000x16, .f32⟩
  | .hbm, ⟨91, _⟩ => ⟨S3200000x16, .f32⟩
  | .hbm, ⟨92, _⟩ => ⟨S_, .f32⟩
  | .hbm, ⟨93, _⟩ => ⟨S100000x16, .f32⟩
  | .hbm, ⟨94, _⟩ => ⟨S_, .i32⟩
  | .hbm, ⟨95, _⟩ => ⟨S3200000, .i32⟩
  | .hbm, ⟨96, _⟩ => ⟨S3200000, .i1⟩
  | .hbm, ⟨97, _⟩ => ⟨S_, .i32⟩
  | .hbm, ⟨98, _⟩ => ⟨S3200000, .i32⟩
  | .hbm, ⟨99, _⟩ => ⟨S3200000, .i32⟩
  | .hbm, ⟨100, _⟩ => ⟨S3200000, .i32⟩
  | .hbm, ⟨101, _⟩ => ⟨S3200000x1, .i32⟩
  | .hbm, ⟨102, _⟩ => ⟨S100000x16, .f32⟩
  | .hbm, ⟨103, _⟩ => ⟨S1x16, .f32⟩
  | .hbm, ⟨104, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S5000x16, .f32⟩
  | .local _ .vmem, ⟨19, _⟩ => ⟨S5000x16, .f32⟩
  | .local _ .vmem, ⟨20, _⟩ => ⟨S5000x16, .f32⟩
  | .local _ .vmem, ⟨21, _⟩ => ⟨S1x16, .f32⟩
  | .local _ .vmem, ⟨22, _⟩ => ⟨S5000x16, .f32⟩
  | .local _ .vmem, ⟨23, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_c_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_12 : Ref sig .tc := ⟨.hbm, 81, rfl⟩
abbrev main_v61 : Ref sig .tc := ⟨.hbm, 82, rfl⟩
abbrev main_v62 : Ref sig .tc := ⟨.hbm, 83, rfl⟩
abbrev main_c_13 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_14 : Ref sig .tc := ⟨.hbm, 92, rfl⟩
abbrev main_v70 : Ref sig .tc := ⟨.hbm, 93, rfl⟩
abbrev main_c_15 : Ref sig .tc := ⟨.hbm, 94, rfl⟩
abbrev main_v71 : Ref sig .tc := ⟨.hbm, 95, rfl⟩
abbrev main_v72 : Ref sig .tc := ⟨.hbm, 96, rfl⟩
abbrev main_c_16 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S3200000x2_S3200000x1_0_0 : S3200000x2.Slices ![0, 0] S3200000x1
  shapeCasts_S3200000x1_S3200000 : S3200000x1.ShapeCasts S3200000
  slices_S3200000x2_S3200000x1_0_1 : S3200000x2.Slices ![0, 1] S3200000x1
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  bcast_S100000x1_S100000x16_0_1 : S100000x1.BroadcastsInDim S100000x16 (![0, 1] : Fin 2 → Fin S100000x16.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S5000x128_S128x64_S5000x64_1_0_0_1_n_n_wf : DotDims.WF S5000x128 S128x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x16_S5000x16_1_0_0_1_n_n_wf : DotDims.WF S5000x64 S64x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x16.size a ≤ S100000x16.size a
  hwx3_1 : ∀ i : grid3.Coords, EltTy.bits .f32 = 32 ∨ (Rect.block (s := S100000x16) S5000x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x16.size a ≤ S100000x16.size a
  hwx3_3 : ∀ i : grid3.Coords, EltTy.bits .f32 = 32 ∨ (Rect.block (s := S100000x16) S5000x16.size (cc3_transform_3 i) (hinb3_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v77) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S5000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v78) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S5000x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S3200000x2 : Shape := ⟨2, ![3200000, 2]⟩
abbrev S128x64 : Shape := ⟨2, ![128, 64]⟩
abbrev S64 : Shape := ⟨1, ![64]⟩
abbrev S64x16 : Shape := ⟨2, ![64, 16]⟩
abbrev S16 : Shape := ⟨1, ![16]⟩
abbrev S3200000x1 : Shape := ⟨2, ![3200000, 1]⟩
abbrev S3200000 : Shape := ⟨1, ![3200000]⟩
abbrev S100000x64 : Shape := ⟨2, ![100000, 64]⟩
abbrev S_ : Shape := ⟨0, ![]⟩
abbrev S100000 : Shape := ⟨1, ![100000]⟩
abbrev S3200000x64 : Shape := ⟨2, ![3200000, 64]⟩
abbrev S100000x1 : Shape := ⟨2, ![100000, 1]⟩
abbrev S1x64 : Shape := ⟨2, ![1, 64]⟩
abbrev S100000x16 : Shape := ⟨2, ![100000, 16]⟩
abbrev S3200000x16 : Shape := ⟨2, ![3200000, 16]⟩
abbrev S1x16 : Shape := ⟨2, ![1, 16]⟩

abbrev nBuf : Space → Nat
  | .hbm => 149
  | .vmem => 0
  | .smem => 0
  | _ => 0

abbrev hbmTy0_0 (i : Nat) : BufTy := match i % 128 with
  | 0 => ⟨S100000x128, .f32⟩
  | 1 => ⟨S3200000x2, .i32⟩
  | 2 => ⟨S128x64, .f32⟩
  | 3 => ⟨S64, .f32⟩
  | 4 => ⟨S64x16, .f32⟩
  | 5 => ⟨S16, .f32⟩
  | 6 => ⟨S3200000x1, .i32⟩
  | 7 => ⟨S3200000, .i32⟩
  | 8 => ⟨S3200000x1, .i32⟩
  | 9 => ⟨S3200000, .i32⟩
  | 10 => ⟨S100000x64, .f32⟩
  | 11 => ⟨S_, .f32⟩
  | 12 => ⟨S100000, .f32⟩
  | 13 => ⟨S_, .i32⟩
  | 14 => ⟨S3200000, .i32⟩
  | 15 => ⟨S3200000, .i1⟩
  | 16 => ⟨S_, .i32⟩
  | 17 => ⟨S3200000, .i32⟩
  | 18 => ⟨S3200000, .i32⟩
  | 19 => ⟨S3200000, .i32⟩
  | 20 => ⟨S3200000x1, .i32⟩
  | 21 => ⟨S_, .f32⟩
  | 22 => ⟨S3200000, .f32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S3200000, .i32⟩
  | 30 => ⟨S3200000, .i1⟩
  | 31 => ⟨S_, .i32⟩
  | 32 => ⟨S3200000, .i32⟩
  | 33 => ⟨S3200000, .i32⟩
  | 34 => ⟨S3200000, .i32⟩
  | 35 => ⟨S3200000x1, .i32⟩
  | 36 => ⟨S3200000, .f32⟩
  | 37 => ⟨S_, .i32⟩
  | 38 => ⟨S3200000, .i32⟩
  | 39 => ⟨S3200000, .i1⟩
  | 40 => ⟨S_, .i32⟩
  | 41 => ⟨S3200000, .i32⟩
  | 42 => ⟨S3200000, .i32⟩
  | 43 => ⟨S3200000, .i32⟩
  | 44 => ⟨S3200000x1, .i32⟩
  | 45 => ⟨S3200000, .f32⟩
  | 46 => ⟨S3200000, .f32⟩
  | 47 => ⟨S_, .f32⟩
  | 48 => ⟨S100000x64, .f32⟩
  | 49 => ⟨S3200000x1, .f32⟩
  | 50 => ⟨S_, .i32⟩
  | 51 => ⟨S3200000, .i32⟩
  | 52 => ⟨S3200000, .i1⟩
  | 53 => ⟨S_, .i32⟩
  | 54 => ⟨S3200000, .i32⟩
  | 55 => ⟨S3200000, .i32⟩
  | 56 => ⟨S3200000, .i32⟩
  | 57 => ⟨S3200000x1, .i32⟩
  | 58 => ⟨S3200000x64, .f32⟩
  | 59 => ⟨S3200000x64, .f32⟩
  | 60 => ⟨S3200000x64, .f32⟩
  | 61 => ⟨S_, .i32⟩
  | 62 => ⟨S3200000, .i32⟩
  | 63 => ⟨S3200000, .i1⟩
  | 64 => ⟨S_, .i32⟩
  | 65 => ⟨S3200000, .i32⟩
  | 66 => ⟨S3200000, .i32⟩
  | 67 => ⟨S3200000, .i32⟩
  | 68 => ⟨S3200000x1, .i32⟩
  | 69 => ⟨S100000x64, .f32⟩
  | 70 => ⟨S100000, .f32⟩
  | 71 => ⟨S100000x1, .f32⟩
  | 72 => ⟨S100000x64, .f32⟩
  | 73 => ⟨S100000x64, .f32⟩
  | 74 => ⟨S100000x64, .f32⟩
  | 75 => ⟨S1x64, .f32⟩
  | 76 => ⟨S100000x64, .f32⟩
  | 77 => ⟨S100000x64, .f32⟩
  | 78 => ⟨S_, .f32⟩
  | 79 => ⟨S100000x64, .f32⟩
  | 80 => ⟨S100000x64, .f32⟩
  | 81 => ⟨S100000x16, .f32⟩
  | 82 => ⟨S_, .f32⟩
  | 83 => ⟨S100000, .f32⟩
  | 84 => ⟨S_, .i32⟩
  | 85 => ⟨S3200000, .i32⟩
  | 86 => ⟨S3200000, .i1⟩
  | 87 => ⟨S_, .i32⟩
  | 88 => ⟨S3200000, .i32⟩
  | 89 => ⟨S3200000, .i32⟩
  | 90 => ⟨S3200000, .i32⟩
  | 91 => ⟨S3200000x1, .i32⟩
  | 92 => ⟨S_, .f32⟩
  | 93 => ⟨S3200000, .f32⟩
  | 94 => ⟨S100000, .f32⟩
  | 95 => ⟨S_, .f32⟩
  | 96 => ⟨S100000, .f32⟩
  | 97 => ⟨S100000, .f32⟩
  | 98 => ⟨S100000, .f32⟩
  | 99 => ⟨S_, .i32⟩
  | 100 => ⟨S3200000, .i32⟩
  | 101 => ⟨S3200000, .i1⟩
  | 102 => ⟨S_, .i32⟩
  | 103 => ⟨S3200000, .i32⟩
  | 104 => ⟨S3200000, .i32⟩
  | 105 => ⟨S3200000, .i32⟩
  | 106 => ⟨S3200000x1, .i32⟩
  | 107 => ⟨S3200000, .f32⟩
  | 108 => ⟨S_, .i32⟩
  | 109 => ⟨S3200000, .i32⟩
  | 110 => ⟨S3200000, .i1⟩
  | 111 => ⟨S_, .i32⟩
  | 112 => ⟨S3200000, .i32⟩
  | 113 => ⟨S3200000, .i32⟩
  | 114 => ⟨S3200000, .i32⟩
  | 115 => ⟨S3200000x1, .i32⟩
  | 116 => ⟨S3200000, .f32⟩
  | 117 => ⟨S3200000, .f32⟩
  | 118 => ⟨S_, .f32⟩
  | 119 => ⟨S100000x16, .f32⟩
  | 120 => ⟨S3200000x1, .f32⟩
  | 121 => ⟨S_, .i32⟩
  | 122 => ⟨S3200000, .i32⟩
  | 123 => ⟨S3200000, .i1⟩
  | 124 => ⟨S_, .i32⟩
  | 125 => ⟨S3200000, .i32⟩
  | 126 => ⟨S3200000, .i32⟩
  | 127 => ⟨S3200000, .i32⟩
  | _ => ⟨S100000x128, .f32⟩

abbrev hbmTy0_1 (i : Nat) : BufTy := match i % 128 with
  | 0 => ⟨S3200000x1, .i32⟩
  | 1 => ⟨S3200000x16, .f32⟩
  | 2 => ⟨S3200000x16, .f32⟩
  | 3 => ⟨S3200000x16, .f32⟩
  | 4 => ⟨S_, .i32⟩
  | 5 => ⟨S3200000, .i32⟩
  | 6 => ⟨S3200000, .i1⟩
  | 7 => ⟨S_, .i32⟩
  | 8 => ⟨S3200000, .i32⟩
  | 9 => ⟨S3200000, .i32⟩
  | 10 => ⟨S3200000, .i32⟩
  | 11 => ⟨S3200000x1, .i32⟩
  | 12 => ⟨S100000x16, .f32⟩
  | 13 => ⟨S100000, .f32⟩
  | 14 => ⟨S100000x1, .f32⟩
  | 15 => ⟨S100000x16, .f32⟩
  | 16 => ⟨S100000x16, .f32⟩
  | 17 => ⟨S100000x16, .f32⟩
  | 18 => ⟨S1x16, .f32⟩
  | 19 => ⟨S100000x16, .f32⟩
  | 20 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_c_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_10 : Ref sig .tc := ⟨.hbm, 61, rfl⟩
abbrev main_v43 : Ref sig .tc := ⟨.hbm, 62, rfl⟩
abbrev main_v44 : Ref sig .tc := ⟨.hbm, 63, rfl⟩
abbrev main_c_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_call0_cst : Ref sig .tc := ⟨.hbm, 78, rfl⟩
abbrev main_call0_v0 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_15 : Ref sig .tc := ⟨.hbm, 92, rfl⟩
abbrev main_v67 : Ref sig .tc := ⟨.hbm, 93, rfl⟩
abbrev main_v68 : Ref sig .tc := ⟨.hbm, 94, rfl⟩
abbrev main_cst_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_17 : Ref sig .tc := ⟨.hbm, 99, rfl⟩
abbrev main_v72 : Ref sig .tc := ⟨.hbm, 100, rfl⟩
abbrev main_v73 : Ref sig .tc := ⟨.hbm, 101, rfl⟩
abbrev main_c_18 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_19 : Ref sig .tc := ⟨.hbm, 108, rfl⟩
abbrev main_v79 : Ref sig .tc := ⟨.hbm, 109, rfl⟩
abbrev main_v80 : Ref sig .tc := ⟨.hbm, 110, rfl⟩
abbrev main_c_20 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_21 : Ref sig .tc := ⟨.hbm, 118, rfl⟩
abbrev main_v87 : Ref sig .tc := ⟨.hbm, 119, rfl⟩
abbrev main_v88 : Ref sig .tc := ⟨.hbm, 120, rfl⟩
abbrev main_c_22 : Ref sig .tc := ⟨.hbm, 121, rfl⟩
abbrev main_v89 : Ref sig .tc := ⟨.hbm, 122, rfl⟩
abbrev main_v90 : Ref sig .tc := ⟨.hbm, 123, rfl⟩
abbrev main_c_23 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_c_24 : Ref sig .tc := ⟨.hbm, 132, rfl⟩
abbrev main_v98 : Ref sig .tc := ⟨.hbm, 133, rfl⟩
abbrev main_v99 : Ref sig .tc := ⟨.hbm, 134, rfl⟩
abbrev main_c_25 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩

abbrev nD : Nat := 1
abbrev τ : Topo := Topo.v7x

variable {F : FTy → Type} [FloatOps F]

class Facts₀ : Prop where
  slices_S3200000x2_S3200000x1_0_0 : S3200000x2.Slices ![0, 0] S3200000x1
  shapeCasts_S3200000x1_S3200000 : S3200000x1.ShapeCasts S3200000
  slices_S3200000x2_S3200000x1_0_1 : S3200000x2.Slices ![0, 1] S3200000x1
  bcast_S_S100000 : S_.BroadcastsInDim S100000 (![] : Fin 0 → Fin S100000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S3200000x1_S3200000x64_0_1 : S3200000x1.BroadcastsInDim S3200000x64 (![0, 1] : Fin 2 → Fin S3200000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x16 : S_.BroadcastsInDim S100000x16 (![] : Fin 0 → Fin S100000x16.rank)
  bcast_S3200000x1_S3200000x16_0_1 : S3200000x1.BroadcastsInDim S3200000x16 (![0, 1] : Fin 2 → Fin S3200000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x128_S128x64_S100000x64_1_0_0_1_n_n_wf : DotDims.WF S100000x128 S128x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x16_S100000x16_1_0_0_1_n_n_wf : DotDims.WF S100000x64 S64x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.WholeRun.lean ====
/-
  The idealized kernel program, run to its end with EVERY buffer named.

  The program is seven segments: host operations, the first matrix product, host operations, the first epilogue, the
  second matrix product, host operations, the second epilogue. The contents of the device's buffers at each
  boundary form a fold from the launch memory: a stretch of host operations applies its operations in order, a
  region replaces each of its arrays by what its write-backs leave and keeps every other buffer. This module states
  the run with the whole final valuation: every weakly fair execution terminates, nothing faults, and each buffer
  that is not scoped to a region ends at the last boundary's contents. The value of the result array and the
  arguments' frame are both read off this one statement.
-/
import proofs.«174401_j88553635709268_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every unscoped buffer of every
    core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- An unscoped reference read in the final state. -/
theorem final_at (r : PUnit × MemSt nD τ sig (Elt F))
    (h : ∀ c : Dev nD, ∀ b ∈ Pipeline.ucRefs τ sig, r.2.mem (((c : Thread nD τ)).1, b) = W7 m ρ c b)
    (c : Dev nD) (b : Ref sig .tc) (hb : ¬ (Proc.devRef .tc b : DevRef τ sig).isScoped) :
    r.2.mem ((c.tc : Thread nD τ).loc b) = W7 m ρ c (Proc.devRef .tc b) :=
  h c _ (mem_uc b hb)

end Cert.KernelIdeal.Whole

end
-- ==== Proof.LibDense.lean ====
/-
  A dense product of two matrices on the extended reals, index by index, and the two array operations that compute it.

  For `x : [n0, nk]` and `w : [nk, n1]` the product is `(x · w)[r, q] = Σ_{k < nk} x[r, k] · w[k, q]` (`denseProd`). A
  contraction whose dimension numbers pair axis 1 of the left operand with axis 0 of the right one, with no batch axes, sums
  exactly these terms: its contraction index is one coordinate `k`, its left operand index at output `(r, q)` is `(r, k)`
  and its right one `(k, q)` (`sum_contr`). So on the extended reals the matrix unit's product into a zero accumulator
  (`matmul_zero_eq`) and the host's `dot_general` (`dotGeneral_eq`) are both `denseProd`: no order of summation, no
  rounding of the operands, no accumulator survives at the ideal instance.
-/
import Idealize.ShloMosaic.PureOps.Ideal.Laws
import Idealize.ShloMosaic.Lib.ValueIdx

noncomputable section

open scoped BigOperators

namespace Cert.LibDense

open Idealize.ShloMosaic Idealize.ShloMosaic.ValueIdx

/-- `(x · w)[r, q] = Σ_k x[r, k] · w[k, q]` on the extended reals. -/
def denseProd {n0 nk n1 : Nat} (x : (⟨2, ![n0, nk]⟩ : Shape).Idx → EReal) (w : (⟨2, ![nk, n1]⟩ : Shape).Idx → EReal) :
    (⟨2, ![n0, n1]⟩ : Shape).Idx → EReal :=
  fun i => ∑ k : Fin nk, x (ix2 (i 0) k) * w (ix2 k (i 1))

theorem denseProd_apply {n0 nk n1 : Nat} (x : (⟨2, ![n0, nk]⟩ : Shape).Idx → EReal) (w : (⟨2, ![nk, n1]⟩ : Shape).Idx → EReal)
    (i : (⟨2, ![n0, n1]⟩ : Shape).Idx) : denseProd x w i = ∑ k : Fin nk, x (ix2 (i 0) k) * w (ix2 k (i 1)) := rfl

/-- A row of a product depends on the same row of the left factor only: if row `p` of `xb` is row `r` of `x` and
    column `q` of `wb` is column `q` of `w`, the products agree at `(p, q)` and `(r, q)` — a row block of `x · w` is
    the product of the row block of `x` with `w`. -/
theorem denseProd_row {nb n0 nk n1 : Nat} (xb : (⟨2, ![nb, nk]⟩ : Shape).Idx → EReal) (x : (⟨2, ![n0, nk]⟩ : Shape).Idx → EReal)
    (wb w : (⟨2, ![nk, n1]⟩ : Shape).Idx → EReal) (p : Fin nb) (r : Fin n0) (q : Fin n1)
    (hx : ∀ k : Fin nk, xb (ix2 p k) = x (ix2 r k)) (hw : ∀ k : Fin nk, wb (ix2 k q) = w (ix2 k q)) :
    denseProd xb wb (ix2 p q) = denseProd x w (ix2 r q) :=
  Finset.sum_congr rfl fun k _ => by
    show xb (ix2 p k) * wb (ix2 k q) = x (ix2 r k) * w (ix2 k q)
    rw [hx k, hw k]

section Plain

variable {n0 nk n1 : Nat} (d : DotDims ⟨2, ![n0, nk]⟩ ⟨2, ![nk, n1]⟩ ⟨2, ![n0, n1]⟩)
  (hr : d.contr.rank = 1) (hs : d.contr.size ⟨0, by omega⟩ = nk)
  (hlc : d.lhsContracting = [1]) (hrc : d.rhsContracting = [0])
  (hl0 : ∀ (i : (⟨2, ![n0, n1]⟩ : Shape).Idx) (q : d.contr.Idx), (d.lhsIdx i q 0).val = (i 0).val)
  (hr1 : ∀ (i : (⟨2, ![n0, n1]⟩ : Shape).Idx) (q : d.contr.Idx), (d.rhsIdx i q 1).val = (i 1).val)

include hr hs hlc hrc hl0 hr1

/-- The contraction's sum over its one-coordinate index is the sum over `k < nk` of row entry times column entry. -/
theorem sum_contr (x : (⟨2, ![n0, nk]⟩ : Shape).Idx → EReal) (w : (⟨2, ![nk, n1]⟩ : Shape).Idx → EReal)
    (i : (⟨2, ![n0, n1]⟩ : Shape).Idx) :
    ∑ q : d.contr.Idx, x (d.lhsIdx i q) * w (d.rhsIdx i q) = denseProd x w i := by
  rw [denseProd_apply, ← Equiv.sum_comp (contrEquiv1 d nk hr hs).symm]
  refine Finset.sum_congr rfl fun k _ => ?_
  have hk := contrEquiv1_symm_val d nk hr hs k
  have el : d.lhsIdx i ((contrEquiv1 d nk hr hs).symm k) = ix2 (i 0) k := funext fun a => Fin.ext (by
    match a with
    | ⟨0, _⟩ => exact hl0 _ _
    | ⟨1, _⟩ => exact (d.lhsIdx_val_of_single hlc i _).trans hk)
  have er : d.rhsIdx i ((contrEquiv1 d nk hr hs).symm k) = ix2 k (i 1) := funext fun a => Fin.ext (by
    match a with
    | ⟨0, _⟩ => exact (d.rhsIdx_val_of_single hrc i _).trans hk
    | ⟨1, _⟩ => exact hr1 _ _)
  rw [el, er]
  rfl

/-- The matrix unit's product into the zero accumulator is the dense product, whatever formats the operands were rounded to. -/
theorem matmul_zero_eq {φ₁ φ₂ : FTy} (prec : Option ContractPrecision) (x : FVec Ideal ⟨2, ![n0, nk]⟩ φ₁)
    (w : FVec Ideal ⟨2, ![nk, n1]⟩ φ₂) :
    FloatOps.matmul d prec x w (constant ⟨2, ![n0, n1]⟩ .f32 0x00000000#32) = denseProd x w :=
  funext fun i => (Ideal.matmul_constant_zero_apply d prec x w i).trans (sum_contr d hr hs hlc hrc hl0 hr1 x w i)

/-- The host's `dot_general` is the dense product, whatever its schedule key. -/
theorem dotGeneral_eq {φ₁ φ₂ : FTy} (prec : Option ContractPrecision) (sched : HostSchedule) (x : FVec Ideal ⟨2, ![n0, nk]⟩ φ₁)
    (w : FVec Ideal ⟨2, ![nk, n1]⟩ φ₂) :
    FloatOps.dotGeneral d prec sched x w = denseProd x w :=
  funext fun i => (Ideal.dotGeneral_apply d prec sched x w i).trans (sum_contr d hr hs hlc hrc hl0 hr1 x w i)

end Plain

end Cert.LibDense

end
-- ==== Proof.DenseA.lean ====
/-
  The first matrix product region: its result array is the dense product of its two operand arrays.

  The region runs over twenty grid points; point `t` stages rows `5000·t … 5000·t + 4999` of the left operand, the
  whole right operand, and writes back rows `5000·t … 5000·t + 4999` of the result. At the ideal instance the body's
  product into a zero accumulator, after the operands' change of format (the identity there), is the dense product of
  the staged row block with the right operand. A row of a dense product depends on the same row of the left operand
  only, so what point `t` writes back is block `t` of the dense product of the WHOLE arrays; the twenty blocks tile
  the result, so after the region the result array holds that product. Stated for any contents `V` of the buffers at
  the region's entry.
-/
import proofs.«174401_j88553635709268_1_alg».proof.Proof.Gen.KernelIdeal.Frame
import proofs.«174401_j88553635709268_1_alg».proof.Proof.LibDense
import Idealize.ShloMosaic.Lib.Pipeline.Value
import Idealize.ShloMosaic.Lib.ValueIdx
import Idealize.ShloMosaic.Lib.Tactic

set_option maxRecDepth 16384

noncomputable section

open scoped BigOperators

namespace Cert.KernelIdeal.DenseA

open Cert.KernelIdeal Cert.KernelIdeal.Gen Idealize.ShloMosaic Idealize.ShloMosaic.TcCoe Idealize.SL.Sem
open Idealize.ShloMosaic.ValueIdx
open Idealize.ShloMosaic.Pipeline (Dat)
open Cert.LibDense

variable (V : (c : Dev nD) → (b : Ref sig .tc) → Buf (Elt Ideal) ((c : Thread nD τ).loc b))

theorem hz : (![0, 0] : Fin 2 → Nat) = fun _ => 0 := funext fun a => by fin_cases a <;> rfl

/-- The product's left operand index keeps the output's row. -/
theorem lhs_row (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl

/-- The product's right operand index keeps the output's column. -/
theorem rhs_col (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's stored value is the dense product of the two staged blocks. -/
theorem pay_eq (x0 : Vec Ideal S5000x128 .f32) (x1 : Vec Ideal S128x64 .f32) :
    k0_pay1 x0 x1 = denseProd (n0 := 5000) (nk := 128) (n1 := 64) x0 x1 := by
  unfold k0_pay1
  exact matmul_zero_eq dot_S5000x128_S128x64_S5000x64_1_0_0_1_n_n rfl rfl rfl rfl lhs_row rhs_col none _ _

/-- A dense product at an index whose row of the left factor and column of the right factor are given elsewhere. -/
theorem dense_at (xb : (⟨2, ![5000, 128]⟩ : Shape).Idx → EReal) (wb : (⟨2, ![128, 64]⟩ : Shape).Idx → EReal)
    (X : (⟨2, ![100000, 128]⟩ : Shape).Idx → EReal) (W : (⟨2, ![128, 64]⟩ : Shape).Idx → EReal)
    (j : (⟨2, ![5000, 64]⟩ : Shape).Idx) (i : (⟨2, ![100000, 64]⟩ : Shape).Idx)
    (hx : ∀ k : Fin 128, xb (ix2 (j 0) k) = X (ix2 (i 0) k)) (hw : ∀ k : Fin 128, wb (ix2 k (j 1)) = W (ix2 k (i 1))) :
    denseProd xb wb j = denseProd X W i :=
  Finset.sum_congr rfl fun k _ => by
    show xb (ix2 (j 0) k) * wb (ix2 k (j 1)) = X (ix2 (i 0) k) * W (ix2 k (i 1))
    rw [hx k, hw k]

/-- The printed index maps over the grid: the left window and the result window move together along the rows, and
    every other block index is zero. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every row block is some point's. -/
theorem idx_onto : ∀ q : Fin 20, ∃ t : Fin cfg0.N, win0_2.index t = ![q.val, 0] :=
  (by decide +kernel : ∀ q : Fin 20, ∃ t : Fin grid0.N, win0_2.index t = ![q.val, 0])

/-- The left window's block at point `t`, read at a row and a column, is the array at that row of block `t`. -/
theorem lhs_blk (c : Dev nD) (t : Fin cfg0.N) (x : S5000x128.Idx) (i : S100000x128.Idx)
    (h0 : (i 0).val = win0_2.index t (0 : Fin 2) * 5000 + (x 0).val) (h1 : (i 1).val = (x 1).val) :
    (iblk0 V c 0 t : Vec Ideal S5000x128 .f32) x = (V c main_arg0 : S100000x128.Idx → EReal) i := by
  obtain ⟨e0, e1, e2, e3, e4, e5⟩ := idx_facts t
  unfold iblk0
  rw [View.read_apply]
  show V c main_arg0 _ = V c main_arg0 _
  refine congrArg _ ?_
  funext a
  apply Fin.ext
  match a with
  | ⟨0, _⟩ => show win0_0.index t (0 : Fin 2) * 5000 + 1 * (x 0).val = (i 0).val; omega
  | ⟨1, _⟩ => show win0_0.index t (1 : Fin 2) * 128 + 1 * (x 1).val = (i 1).val; omega

/-- The right window's block at any point is the whole right operand. -/
theorem rhs_blk (c : Dev nD) (t : Fin cfg0.N) (x : S128x64.Idx) :
    (iblk0 V c 1 t : Vec Ideal S128x64 .f32) x = (V c main_arg2 : S128x64.Idx → EReal) x := by
  obtain ⟨e0, e1, e2, e3, e4, e5⟩ := idx_facts t
  unfold iblk0
  rw [View.read_apply]
  show V c main_arg2 _ = V c main_arg2 _
  refine congrArg _ ?_
  funext a
  apply Fin.ext
  match a with
  | ⟨0, _⟩ => show win0_1.index t (0 : Fin 2) * 128 + 1 * (x 0).val = (x 0).val; omega
  | ⟨1, _⟩ => show win0_1.index t (1 : Fin 2) * 64 + 1 * (x 1).val = (x 1).val; omega

/-- The whole-array value: the dense product of the two operand arrays as the region finds them. -/
abbrev product (c : Dev nD) : S100000x64.Idx → EReal :=
  denseProd (n0 := 100000) (nk := 128) (n1 := 64) (V c main_arg0) (V c main_arg2)

/-- What point `t` writes back is block `t` of the product of the whole arrays. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  rw [pay_eq]
  funext j
  show denseProd (n0 := 5000) (nk := 128) (n1 := 64) (iblk0 V c 0 t) (iblk0 V c 1 t) j
    = denseProd (n0 := 100000) (nk := 128) (n1 := 64) (V c main_arg0) (V c main_arg2) (((cfg0.win 2).blk t).view.emb j)
  refine dense_at _ _ _ _ j _ (fun k => ?_) (fun k => ?_)
  · refine lhs_blk V c t _ _ ?_ rfl
    show win0_2.index t (0 : Fin 2) * 5000 + 1 * (j 0).val = win0_2.index t (0 : Fin 2) * 5000 + (j 0).val
    omega
  · refine (rhs_blk V c t _).trans ?_
    obtain ⟨e0, e1, e2, e3, e4, e5⟩ := idx_facts t
    refine congrArg _ ?_
    funext a
    apply Fin.ext
    match a with
    | ⟨0, _⟩ => rfl
    | ⟨1, _⟩ => show (j 1).val = win0_2.index t (1 : Fin 2) * 64 + 1 * (j 1).val; omega

/-- An index of the result array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- The twenty row blocks tile the result: row `r` is in the block of the point whose block index is `r / 5000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region the result array holds the dense product of the operand arrays. -/
theorem final (c : Dev nD) : (dat0 V c).arrAt 2 cfg0.N = product V c :=
  (dat0 V c).arrAt_eq_of_cover 2 (product V c) (fun t _ => flushed_eq V c t) (cover)

end Cert.KernelIdeal.DenseA

end
-- ==== Proof.DenseB.lean ====
/-
  The second matrix product region: its result array is the dense product of its two operand arrays.

  The region runs over twenty grid points; point `t` stages rows `5000·t … 5000·t + 4999` of the left operand, the
  whole right operand, and writes back rows `5000·t … 5000·t + 4999` of the result. At the ideal instance the body's
  product into a zero accumulator, after the operands' change of format (the identity there), is the dense product of
  the staged row block with the right operand. A row of a dense product depends on the same row of the left operand
  only, so what point `t` writes back is block `t` of the dense product of the WHOLE arrays; the twenty blocks tile
  the result, so after the region the result array holds that product. Stated for any contents `V` of the buffers at
  the region's entry.
-/
import proofs.«174401_j88553635709268_1_alg».proof.Proof.Gen.KernelIdeal.Frame
import proofs.«174401_j88553635709268_1_alg».proof.Proof.LibDense
import Idealize.ShloMosaic.Lib.Pipeline.Value
import Idealize.ShloMosaic.Lib.ValueIdx
import Idealize.ShloMosaic.Lib.Tactic

set_option maxRecDepth 16384

noncomputable section

open scoped BigOperators

namespace Cert.KernelIdeal.DenseB

open Cert.KernelIdeal Cert.KernelIdeal.Gen Idealize.ShloMosaic Idealize.ShloMosaic.TcCoe Idealize.SL.Sem
open Idealize.ShloMosaic.ValueIdx
open Idealize.ShloMosaic.Pipeline (Dat)
open Cert.LibDense

variable (V : (c : Dev nD) → (b : Ref sig .tc) → Buf (Elt Ideal) ((c : Thread nD τ).loc b))

theorem hz : (![0, 0] : Fin 2 → Nat) = fun _ => 0 := funext fun a => by fin_cases a <;> rfl

/-- The product's left operand index keeps the output's row. -/
theorem lhs_row (i : S5000x16.Idx) (q : dot_S5000x64_S64x16_S5000x16_1_0_0_1_n_n.contr.Idx) : (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl

/-- The product's right operand index keeps the output's column. -/
theorem rhs_col (i : S5000x16.Idx) (q : dot_S5000x64_S64x16_S5000x16_1_0_0_1_n_n.contr.Idx) : (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl

/-- The body's stored value is the dense product of the two staged blocks. -/
theorem pay_eq (x0 : Vec Ideal S5000x64 .f32) (x1 : Vec Ideal S64x16 .f32) :
    k2_pay1 x0 x1 = denseProd (n0 := 5000) (nk := 64) (n1 := 16) x0 x1 := by
  unfold k2_pay1
  simp only [shapeCast_self]
  exact matmul_zero_eq dot_S5000x64_S64x16_S5000x16_1_0_0_1_n_n rfl rfl rfl rfl lhs_row rhs_col none _ _

/-- A dense product at an index whose row of the left factor and column of the right factor are given elsewhere. -/
theorem dense_at (xb : (⟨2, ![5000, 64]⟩ : Shape).Idx → EReal) (wb : (⟨2, ![64, 16]⟩ : Shape).Idx → EReal)
    (X : (⟨2, ![100000, 64]⟩ : Shape).Idx → EReal) (W : (⟨2, ![64, 16]⟩ : Shape).Idx → EReal)
    (j : (⟨2, ![5000, 16]⟩ : Shape).Idx) (i : (⟨2, ![100000, 16]⟩ : Shape).Idx)
    (hx : ∀ k : Fin 64, xb (ix2 (j 0) k) = X (ix2 (i 0) k)) (hw : ∀ k : Fin 64, wb (ix2 k (j 1)) = W (ix2 k (i 1))) :
    denseProd xb wb j = denseProd X W i :=
  Finset.sum_congr rfl fun k _ => by
    show xb (ix2 (j 0) k) * wb (ix2 k (j 1)) = X (ix2 (i 0) k) * W (ix2 k (i 1))
    rw [hx k, hw k]

/-- The printed index maps over the grid: the left window and the result window move together along the rows, and
    every other block index is zero. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 19 :=
  (by decide +kernel : ∀ t : Fin grid2.N, _)

/-- Every row block is some point's. -/
theorem idx_onto : ∀ q : Fin 20, ∃ t : Fin cfg2.N, win2_2.index t = ![q.val, 0] :=
  (by decide +kernel : ∀ q : Fin 20, ∃ t : Fin grid2.N, win2_2.index t = ![q.val, 0])

/-- The left window's block at point `t`, read at a row and a column, is the array at that row of block `t`. -/
theorem lhs_blk (c : Dev nD) (t : Fin cfg2.N) (x : S5000x64.Idx) (i : S100000x64.Idx)
    (h0 : (i 0).val = win2_2.index t (0 : Fin 2) * 5000 + (x 0).val) (h1 : (i 1).val = (x 1).val) :
    (iblk2 V c 0 t : Vec Ideal S5000x64 .f32) x = (V c main_v55 : S100000x64.Idx → EReal) i := by
  obtain ⟨e0, e1, e2, e3, e4, e5⟩ := idx_facts t
  unfold iblk2
  rw [View.read_apply]
  show V c main_v55 _ = V c main_v55 _
  refine congrArg _ ?_
  funext a
  apply Fin.ext
  match a with
  | ⟨0, _⟩ => show win2_0.index t (0 : Fin 2) * 5000 + 1 * (x 0).val = (i 0).val; omega
  | ⟨1, _⟩ => show win2_0.index t (1 : Fin 2) * 64 + 1 * (x 1).val = (i 1).val; omega

/-- The right window's block at any point is the whole right operand. -/
theorem rhs_blk (c : Dev nD) (t : Fin cfg2.N) (x : S64x16.Idx) :
    (iblk2 V c 1 t : Vec Ideal S64x16 .f32) x = (V c main_arg4 : S64x16.Idx → EReal) x := by
  obtain ⟨e0, e1, e2, e3, e4, e5⟩ := idx_facts t
  unfold iblk2
  rw [View.read_apply]
  show V c main_arg4 _ = V c main_arg4 _
  refine congrArg _ ?_
  funext a
  apply Fin.ext
  match a with
  | ⟨0, _⟩ => show win2_1.index t (0 : Fin 2) * 64 + 1 * (x 0).val = (x 0).val; omega
  | ⟨1, _⟩ => show win2_1.index t (1 : Fin 2) * 16 + 1 * (x 1).val = (x 1).val; omega

/-- The whole-array value: the dense product of the two operand arrays as the region finds them. -/
abbrev product (c : Dev nD) : S100000x16.Idx → EReal :=
  denseProd (n0 := 100000) (nk := 64) (n1 := 16) (V c main_v55) (V c main_arg4)

/-- What point `t` writes back is block `t` of the product of the whole arrays. -/
theorem flushed_eq (c : Dev nD) (t : Fin cfg2.N) :
    (dat2 V c).flushed 2 t = ((cfg2.win 2).blk t).view.read (Elt Ideal) (product V c) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x16) hz]
  rw [pay_eq]
  funext j
  show denseProd (n0 := 5000) (nk := 64) (n1 := 16) (iblk2 V c 0 t) (iblk2 V c 1 t) j
    = denseProd (n0 := 100000) (nk := 64) (n1 := 16) (V c main_v55) (V c main_arg4) (((cfg2.win 2).blk t).view.emb j)
  refine dense_at _ _ _ _ j _ (fun k => ?_) (fun k => ?_)
  · refine lhs_blk V c t _ _ ?_ rfl
    show win2_2.index t (0 : Fin 2) * 5000 + 1 * (j 0).val = win2_2.index t (0 : Fin 2) * 5000 + (j 0).val
    omega
  · refine (rhs_blk V c t _).trans ?_
    obtain ⟨e0, e1, e2, e3, e4, e5⟩ := idx_facts t
    refine congrArg _ ?_
    funext a
    apply Fin.ext
    match a with
    | ⟨0, _⟩ => rfl
    | ⟨1, _⟩ => show (j 1).val = win2_2.index t (1 : Fin 2) * 16 + 1 * (j 1).val; omega

/-- An index of the result array is in point `t`'s block iff each coordinate is in the block's range on its axis. -/
theorem mem_blk (t : Fin cfg2.N) (i : S100000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v56).slice (win2_2.rect t)).set ↔ _
  rw [View.set_slice_whole, Rect.mem_set_unit]
  exact Iff.rfl

/-- The twenty row blocks tile the result: row `r` is in the block of the point whose block index is `r / 5000`. -/
theorem cover (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 16 ≤ (i 1).val ∧ (i 1).val < win2_2.index t (1 : Fin 2) * 16 + 16; omega

/-- After the region the result array holds the dense product of the operand arrays. -/
theorem final (c : Dev nD) : (dat2 V c).arrAt 2 cfg2.N = product V c :=
  (dat2 V c).arrAt_eq_of_cover 2 (product V c) (fun t _ => flushed_eq V c t) (cover)

end Cert.KernelIdeal.DenseB

end
-- ==== Proof.EpiA.lean ====
/-
  The first epilogue region: its result array is the sum of its two operand arrays plus the bias row, clamped at zero from below, entry by entry.

  The region runs over twenty grid points; point `t` stages rows `5000·t … 5000·t + 4999` of the aggregated
  messages and of the self-loop term, the whole one-row bias, and writes back the same rows of the result. The body
  adds the two row blocks, adds the bias row spread over the rows, and takes the maximum with zero: every operation acts on one
  entry of each operand, so what point `t` writes back is block `t` of ONE function of the whole arrays, index by
  index — at row `r`, column `q`: max ((a[r,q] + s[r,q]) + b[0,q], 0). The twenty blocks tile the result. Stated for any
  contents `V` of the buffers at the region's entry.
-/
import proofs.«174401_j88553635709268_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.EpiA

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The epilogue of one entry: the two terms added, then the bias, then the maximum with zero. -/
def entry (a s b : EReal) : EReal := max ((a + s) + b) (Ideal.ofBits .f32 0x00000000#32)

/-- The body's stored value at an entry of the block. -/
theorem pay_at (a s : Vec Ideal S5000x64 .f32) (b : Vec Ideal S1x64 .f32) (j : S5000x64.Idx) :
    k1_pay1 a s b j = entry (a j) (s j) (b (ix2 (0 : Fin 1) (j 1))) := by
  unfold k1_pay1
  simp only [shapeCast_self]
  have hb : broadcastTo S5000x64 b broadcasts_S1x64_S5000x64 j = b (ix2 (0 : Fin 1) (j 1)) :=
    broadcastTo_apply b broadcasts_S1x64_S5000x64 j (ix2 (0 : Fin 1) (j 1)) (fun a => by
      match a with
      | ⟨0, _⟩ => rfl
      | ⟨1, _⟩ => rfl)
  show max ((a j + s j) + broadcastTo S5000x64 b broadcasts_S1x64_S5000x64 j) _ = _
  rw [hb]
  rfl

/-- The printed index maps over the grid: the three row-block windows move together along the rows, and every other
    block index is zero. -/
theorem idx_facts : ∀ t : Fin cfg1.N, win1_0.index t (0 : Fin 2) = win1_3.index t (0 : Fin 2)
    ∧ win1_1.index t (0 : Fin 2) = win1_3.index t (0 : Fin 2)
    ∧ win1_0.index t (1 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 19 :=
  (by decide +kernel : ∀ t : Fin grid1.N, _)

/-- Every row block is some point's. -/
theorem idx_onto : ∀ q : Fin 20, ∃ t : Fin cfg1.N, win1_3.index t = ![q.val, 0] :=
  (by decide +kernel : ∀ q : Fin 20, ∃ t : Fin grid1.N, win1_3.index t = ![q.val, 0])

/-- The aggregated messages' block at point `t` is the array at the rows of block `t`. -/
theorem agg_blk (c : Dev nD) (t : Fin cfg1.N) (x : S5000x64.Idx) (i : S100000x64.Idx)
    (h0 : (i 0).val = win1_3.index t (0 : Fin 2) * 5000 + (x 0).val) (h1 : (i 1).val = (x 1).val) :
    (iblk1 V c 0 t : Vec Ideal S5000x64 .f32) x = (V c main_v53 : S100000x64.Idx → EReal) i := by
  obtain ⟨e0, e1, e2, e3, e4, e5, e6, e7⟩ := idx_facts t
  unfold iblk1
  rw [View.read_apply]
  show V c main_v53 _ = V c main_v53 _
  refine congrArg _ ?_
  funext a
  apply Fin.ext
  match a with
  | ⟨0, _⟩ => show win1_0.index t (0 : Fin 2) * 5000 + 1 * (x 0).val = (i 0).val; omega
  | ⟨1, _⟩ => show win1_0.index t (1 : Fin 2) * 64 + 1 * (x 1).val = (i 1).val; omega

/-- The self-loop term's block at point `t` is the array at the rows of block `t`. -/
theorem self_blk (c : Dev nD) (t : Fin cfg1.N) (x : S5000x64.Idx) (i : S100000x64.Idx)
    (h0 : (i 0).val = win1_3.index t (0 : Fin 2) * 5000 + (x 0).val) (h1 : (i 1).val = (x 1).val) :
    (iblk1 V c 1 t : Vec Ideal S5000x64 .f32) x = (V c main_v35 : S100000x64.Idx → EReal) i := by
  obtain ⟨e0, e1, e2, e3, e4, e5, e6, e7⟩ := idx_facts t
  unfold iblk1
  rw [View.read_apply]
  show V c main_v35 _ = V c main_v35 _
  refine congrArg _ ?_
  funext a
  apply Fin.ext
  match a with
  | ⟨0, _⟩ => show win1_1.index t (0 : Fin 2) * 5000 + 1 * (x 0).val = (i 0).val; omega
  | ⟨1, _⟩ => show win1_1.index t (1 : Fin 2) * 64 + 1 * (x 1).val = (i 1).val; omega

/-- The bias window's block at any point is the whole one-row bias. -/
theorem bias_blk (c : Dev nD) (t : Fin cfg1.N) (x : S1x64.Idx) (i : S1x64.Idx)
    (h0 : (i 0).val = (x 0).val) (h1 : (i 1).val = (x 1).val) :
    (iblk1 V c 2 t : Vec Ideal S1x64 .f32) x = (V c main_v54 : S1x64.Idx → EReal) i := by
  obtain ⟨e0, e1, e2, e3, e4, e5, e6, e7⟩ := idx_facts t
  unfold iblk1
  rw [View.read_apply]
  show V c main_v54 _ = V c main_v54 _
  refine congrArg _ ?_
  funext a
  apply Fin.ext
  match a with
  | ⟨0, _⟩ => show win1_2.index t (0 : Fin 2) * 1 + 1 * (x 0).val = (i 0).val; omega
  | ⟨1, _⟩ => show win1_2.index t (1 : Fin 2) * 64 + 1 * (x 1).val = (i 1).val; omega

/-- The whole-array value: the epilogue of the three operand arrays as the region finds them, index by index. -/
abbrev result (c : Dev nD) : S100000x64.Idx → EReal := fun i =>
  entry ((V c main_v53 : S100000x64.Idx → EReal) i) ((V c main_v35 : S100000x64.Idx → EReal) i)
    ((V c main_v54 : S1x64.Idx → EReal) (ix2 (0 : Fin 1) (i 1)))

/-- What point `t` writes back is block `t` of the epilogue of the whole arrays. -/
theorem flushed_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz]
  funext j
  show k1_pay1 (iblk1 V c 0 t) (iblk1 V c 1 t) (iblk1 V c 2 t) j = result V c (((cfg1.win 3).blk t).view.emb j)
  refine (pay_at _ _ _ j).trans ?_
  obtain ⟨e0, e1, e2, e3, e4, e5, e6, e7⟩ := idx_facts t
  have hr : ((((cfg1.win 3).blk t).view.emb j) 0).val = win1_3.index t (0 : Fin 2) * 5000 + (j 0).val := by
    show win1_3.index t (0 : Fin 2) * 5000 + 1 * (j 0).val = _; omega
  have hq : ((((cfg1.win 3).blk t).view.emb j) 1).val = (j 1).val := by
    show win1_3.index t (1 : Fin 2) * 64 + 1 * (j 1).val = _; omega
  show entry _ _ _ = entry _ _ _
  rw [agg_blk V c t j _ hr hq, self_blk V c t j _ hr hq,
    bias_blk V c t (ix2 (0 : Fin 1) (j 1)) (ix2 (0 : Fin 1) ((((cfg1.win 3).blk t).view.emb j) 1)) rfl hq]

/-- An index of the result array is in point `t`'s block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v55).slice (win1_3.rect t)).set ↔ _
  rw [View.set_slice_whole, Rect.mem_set_unit]
  exact Iff.rfl

/-- The twenty row blocks tile the result: row `r` is in the block of the point whose block index is `r / 5000`. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- After the region the result array holds the epilogue of the operand arrays. -/
theorem final (c : Dev nD) : (dat1 V c).arrAt 3 cfg1.N = result V c :=
  (dat1 V c).arrAt_eq_of_cover 3 (result V c) (fun t _ => flushed_eq V c t) (cover)

end Cert.KernelIdeal.EpiA

end
-- ==== Proof.EpiB.lean ====
/-
  The second epilogue region: its result array is the sum of its two operand arrays plus the bias row, entry by entry.

  The region runs over twenty grid points; point `t` stages rows `5000·t … 5000·t + 4999` of the aggregated
  messages and of the self-loop term, the whole one-row bias, and writes back the same rows of the result. The body
  adds the two row blocks, adds the bias row spread over the rows: every operation acts on one
  entry of each operand, so what point `t` writes back is block `t` of ONE function of the whole arrays, index by
  index — at row `r`, column `q`: (a[r,q] + s[r,q]) + b[0,q]. The twenty blocks tile the result. Stated for any
  contents `V` of the buffers at the region's entry.
-/
import proofs.«174401_j88553635709268_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.EpiB

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The epilogue of one entry: the two terms added, then the bias. -/
def entry (a s b : EReal) : EReal := (a + s) + b

/-- The body's stored value at an entry of the block. -/
theorem pay_at (a s : Vec Ideal S5000x16 .f32) (b : Vec Ideal S1x16 .f32) (j : S5000x16.Idx) :
    k3_pay1 a s b j = entry (a j) (s j) (b (ix2 (0 : Fin 1) (j 1))) := by
  unfold k3_pay1
  simp only [shapeCast_self]
  have hb : broadcastTo S5000x16 b broadcasts_S1x16_S5000x16 j = b (ix2 (0 : Fin 1) (j 1)) :=
    broadcastTo_apply b broadcasts_S1x16_S5000x16 j (ix2 (0 : Fin 1) (j 1)) (fun a => by
      match a with
      | ⟨0, _⟩ => rfl
      | ⟨1, _⟩ => rfl)
  show (a j + s j) + broadcastTo S5000x16 b broadcasts_S1x16_S5000x16 j = _
  rw [hb]
  rfl

/-- The printed index maps over the grid: the three row-block windows move together along the rows, and every other
    block index is zero. -/
theorem idx_facts : ∀ t : Fin cfg3.N, win3_0.index t (0 : Fin 2) = win3_3.index t (0 : Fin 2)
    ∧ win3_1.index t (0 : Fin 2) = win3_3.index t (0 : Fin 2)
    ∧ win3_0.index t (1 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 19 :=
  (by decide +kernel : ∀ t : Fin grid3.N, _)

/-- Every row block is some point's. -/
theorem idx_onto : ∀ q : Fin 20, ∃ t : Fin cfg3.N, win3_3.index t = ![q.val, 0] :=
  (by decide +kernel : ∀ q : Fin 20, ∃ t : Fin grid3.N, win3_3.index t = ![q.val, 0])

/-- The aggregated messages' block at point `t` is the array at the rows of block `t`. -/
theorem agg_blk (c : Dev nD) (t : Fin cfg3.N) (x : S5000x16.Idx) (i : S100000x16.Idx)
    (h0 : (i 0).val = win3_3.index t (0 : Fin 2) * 5000 + (x 0).val) (h1 : (i 1).val = (x 1).val) :
    (iblk3 V c 0 t : Vec Ideal S5000x16 .f32) x = (V c main_v77 : S100000x16.Idx → EReal) i := by
  obtain ⟨e0, e1, e2, e3, e4, e5, e6, e7⟩ := idx_facts t
  unfold iblk3
  rw [View.read_apply]
  show V c main_v77 _ = V c main_v77 _
  refine congrArg _ ?_
  funext a
  apply Fin.ext
  match a with
  | ⟨0, _⟩ => show win3_0.index t (0 : Fin 2) * 5000 + 1 * (x 0).val = (i 0).val; omega
  | ⟨1, _⟩ => show win3_0.index t (1 : Fin 2) * 16 + 1 * (x 1).val = (i 1).val; omega

/-- The self-loop term's block at point `t` is the array at the rows of block `t`. -/
theorem self_blk (c : Dev nD) (t : Fin cfg3.N) (x : S5000x16.Idx) (i : S100000x16.Idx)
    (h0 : (i 0).val = win3_3.index t (0 : Fin 2) * 5000 + (x 0).val) (h1 : (i 1).val = (x 1).val) :
    (iblk3 V c 1 t : Vec Ideal S5000x16 .f32) x = (V c main_v59 : S100000x16.Idx → EReal) i := by
  obtain ⟨e0, e1, e2, e3, e4, e5, e6, e7⟩ := idx_facts t
  unfold iblk3
  rw [View.read_apply]
  show V c main_v59 _ = V c main_v59 _
  refine congrArg _ ?_
  funext a
  apply Fin.ext
  match a with
  | ⟨0, _⟩ => show win3_1.index t (0 : Fin 2) * 5000 + 1 * (x 0).val = (i 0).val; omega
  | ⟨1, _⟩ => show win3_1.index t (1 : Fin 2) * 16 + 1 * (x 1).val = (i 1).val; omega

/-- The bias window's block at any point is the whole one-row bias. -/
theorem bias_blk (c : Dev nD) (t : Fin cfg3.N) (x : S1x16.Idx) (i : S1x16.Idx)
    (h0 : (i 0).val = (x 0).val) (h1 : (i 1).val = (x 1).val) :
    (iblk3 V c 2 t : Vec Ideal S1x16 .f32) x = (V c main_v78 : S1x16.Idx → EReal) i := by
  obtain ⟨e0, e1, e2, e3, e4, e5, e6, e7⟩ := idx_facts t
  unfold iblk3
  rw [View.read_apply]
  show V c main_v78 _ = V c main_v78 _
  refine congrArg _ ?_
  funext a
  apply Fin.ext
  match a with
  | ⟨0, _⟩ => show win3_2.index t (0 : Fin 2) * 1 + 1 * (x 0).val = (i 0).val; omega
  | ⟨1, _⟩ => show win3_2.index t (1 : Fin 2) * 16 + 1 * (x 1).val = (i 1).val; omega

/-- The whole-array value: the epilogue of the three operand arrays as the region finds them, index by index. -/
abbrev result (c : Dev nD) : S100000x16.Idx → EReal := fun i =>
  entry ((V c main_v77 : S100000x16.Idx → EReal) i) ((V c main_v59 : S100000x16.Idx → EReal) i)
    ((V c main_v78 : S1x16.Idx → EReal) (ix2 (0 : Fin 1) (i 1)))

/-- What point `t` writes back is block `t` of the epilogue of the whole arrays. -/
theorem flushed_eq (c : Dev nD) (t : Fin cfg3.N) :
    (dat3 V c).flushed 3 t = ((cfg3.win 3).blk t).view.read (Elt Ideal) (result V c) := by
  show (cfg3.win 3).cut (grid3.coords t) ((dat3 V c).after 3 t) = _
  rw [after3_3]
  unfold out3_3
  rw [View.canon_unit_zero hz]
  simp only [View.ld_unit_zero (S := S5000x16) hz, View.ld_unit_zero (S := S1x16) hz]
  funext j
  show k3_pay1 (iblk3 V c 0 t) (iblk3 V c 1 t) (iblk3 V c 2 t) j = result V c (((cfg3.win 3).blk t).view.emb j)
  refine (pay_at _ _ _ j).trans ?_
  obtain ⟨e0, e1, e2, e3, e4, e5, e6, e7⟩ := idx_facts t
  have hr : ((((cfg3.win 3).blk t).view.emb j) 0).val = win3_3.index t (0 : Fin 2) * 5000 + (j 0).val := by
    show win3_3.index t (0 : Fin 2) * 5000 + 1 * (j 0).val = _; omega
  have hq : ((((cfg3.win 3).blk t).view.emb j) 1).val = (j 1).val := by
    show win3_3.index t (1 : Fin 2) * 16 + 1 * (j 1).val = _; omega
  show entry _ _ _ = entry _ _ _
  rw [agg_blk V c t j _ hr hq, self_blk V c t j _ hr hq,
    bias_blk V c t (ix2 (0 : Fin 1) (j 1)) (ix2 (0 : Fin 1) ((((cfg3.win 3).blk t).view.emb j) 1)) rfl hq]

/-- An index of the result array is in point `t`'s block iff each coordinate is in the block's range on its axis. -/
theorem mem_blk (t : Fin cfg3.N) (i : S100000x16.Idx) :
    i ∈ ((cfg3.win 3).blk t).view.set ↔ ∀ a : Fin 2, win3_3.index t a * S5000x16.size a ≤ (i a).val ∧ (i a).val < win3_3.index t a * S5000x16.size a + S5000x16.size a := by
  show i ∈ ((View.whole main_v79).slice (win3_3.rect t)).set ↔ _
  rw [View.set_slice_whole, Rect.mem_set_unit]
  exact Iff.rfl

/-- The twenty row blocks tile the result: row `r` is in the block of the point whose block index is `r / 5000`. -/
theorem cover (i : S100000x16.Idx) : ∃ t : Fin cfg3.N, (cfg3.win 3).flush t = true ∧ i ∈ ((cfg3.win 3).blk t).view.set := by
  have hi0 : (i 0).val < 100000 := (i 0).isLt
  have hi1 : (i 1).val < 16 := (i 1).isLt
  obtain ⟨t, ht⟩ := idx_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 16 ≤ (i 1).val ∧ (i 1).val < win3_3.index t (1 : Fin 2) * 16 + 16; omega

/-- After the region the result array holds the epilogue of the operand arrays. -/
theorem final (c : Dev nD) : (dat3 V c).arrAt 3 cfg3.N = result V c :=
  (dat3 V c).arrAt_eq_of_cover 3 (result V c) (fun t _ => flushed_eq V c t) (cover)

end Cert.KernelIdeal.EpiB

end
-- ==== Proof.RefForms.lean ====
/-
  The reference program's stages, read in the forms the kernel's regions are read in.

  The reference is one straight line of host operations; its generated stage functions name each operation's value
  as a function of the arguments. Two kinds of stages meet a kernel region:
  * a `dot_general` contracting axis 1 of its left operand with axis 0 of its right one is the dense product
    `Σ_k x[r,k] · w[k,q]` (both layers' feature transforms);
  * the layer's epilogue — aggregated messages plus self-loop term, plus the bias laid along every row, and for the
    first layer the maximum with zero — is, at row `r` and column `q`, `(a[r,q] + s[r,q]) + b[q]` (clamped at zero
    from below in the first layer): the bias reaches the entry through two broadcasts, `[n] → [1,n] → [rows,n]`,
    which read entry `q` of the vector.
-/
import proofs.«174401_j88553635709268_1_alg».proof.Proof.Gen.ReferenceIdeal.Read
import proofs.«174401_j88553635709268_1_alg».proof.Proof.LibDense
import Idealize.ShloMosaic.Lib.Pipeline.Value
import Idealize.ShloMosaic.Lib.ValueIdx

noncomputable section

namespace Cert.ReferenceIdeal.Forms

open Cert.ReferenceIdeal Cert.ReferenceIdeal.Read Idealize.ShloMosaic Idealize.ShloMosaic.TcCoe
open Idealize.ShloMosaic.ValueIdx Cert.LibDense

/-- The first layer's feature transform is the dense product of the features with the first weight matrix. -/
theorem dense1 (x0 : (⟨S100000x128, .f32⟩ : BufTy).Contents (Elt Ideal)) (x2 : (⟨S128x64, .f32⟩ : BufTy).Contents (Elt Ideal)) :
    val_main_v4 (F := Ideal) x0 x2 = denseProd (n0 := 100000) (nk := 128) (n1 := 64) x0 x2 := by
  unfold val_main_v4
  exact dotGeneral_eq dot_S100000x128_S128x64_S100000x64_1_0_0_1_n_n rfl rfl rfl rfl lhs_main_v4_0 rhs_main_v4_1 none _ x0 x2

/-- The second layer's feature transform is the dense product of the hidden features with the second weight matrix. -/
theorem dense2 (x0 : (⟨S100000x128, .f32⟩ : BufTy).Contents (Elt Ideal)) (x1 : (⟨S3200000x2, .i32⟩ : BufTy).Contents (Elt Ideal)) (x2 : (⟨S128x64, .f32⟩ : BufTy).Contents (Elt Ideal)) (x3 : (⟨S64, .f32⟩ : BufTy).Contents (Elt Ideal)) (x4 : (⟨S64x16, .f32⟩ : BufTy).Contents (Elt Ideal)) :
    val_main_v59 (F := Ideal) x0 x1 x2 x3 x4
      = denseProd (n0 := 100000) (nk := 64) (n1 := 16) (val_main_v58 (F := Ideal) x0 x1 x2 x3) x4 := by
  unfold val_main_v59
  exact dotGeneral_eq dot_S100000x64_S64x16_S100000x16_1_0_0_1_n_n rfl rfl rfl rfl lhs_main_v59_0 rhs_main_v59_1 none _ _ x4

/-- The first layer's output at an entry: messages plus self-loop term, plus the bias entry of the column, clamped at
    zero from below. -/
theorem hidden_at (x0 : (⟨S100000x128, .f32⟩ : BufTy).Contents (Elt Ideal)) (x1 : (⟨S3200000x2, .i32⟩ : BufTy).Contents (Elt Ideal)) (x2 : (⟨S128x64, .f32⟩ : BufTy).Contents (Elt Ideal)) (x3 : (⟨S64, .f32⟩ : BufTy).Contents (Elt Ideal)) (i : S100000x64.Idx) :
    val_main_v58 (F := Ideal) x0 x1 x2 x3 i
      = max ((val_main_v49 (F := Ideal) x0 x1 x2 i + val_main_v53 (F := Ideal) x0 x1 x2 i) + x3 (ix1 (i 1)))
          (Ideal.ofBits .f32 0x00000000#32) := by
  rw [val_main_v58_apply, val_main_v57_apply, val_main_v54_apply, val_main_v56_apply, val_main_v55_apply,
    val_main_call0_v0_apply, val_main_call0_cst_apply]
  have e : idx_main_v55 (idx_main_v56 i) = ix1 (i 1) := funext fun a => Fin.ext (by
    match a with
    | ⟨0, _⟩ => rfl)
  rw [e]
  rfl

/-- The second layer's output at an entry: messages plus self-loop term, plus the bias entry of the column. -/
theorem output_at (x0 : (⟨S100000x128, .f32⟩ : BufTy).Contents (Elt Ideal)) (x1 : (⟨S3200000x2, .i32⟩ : BufTy).Contents (Elt Ideal)) (x2 : (⟨S128x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal)) (i : S100000x16.Idx) :
    val_main_v112 (F := Ideal) x0 x1 x2 x3 x4 x5 i
      = (val_main_v104 (F := Ideal) x0 x1 x2 x3 x4 i + val_main_v108 (F := Ideal) x0 x1 x2 x3 x4 i) + x5 (ix1 (i 1)) := by
  rw [val_main_v112_apply, val_main_v109_apply, val_main_v111_apply, val_main_v110_apply]
  have e : idx_main_v110 (idx_main_v111 i) = ix1 (i 1) := funext fun a => Fin.ext (by
    match a with
    | ⟨0, _⟩ => rfl)
  rw [e]
  rfl

end Cert.ReferenceIdeal.Forms

end
-- ==== Proof.Fold.lean ====
import proofs.«174401_j88553635709268_1_alg».proof.Proof.Gen.KernelIdeal.Frame
import proofs.«174401_j88553635709268_1_alg».proof.Proof.Gen.ReferenceIdeal.Read
import proofs.«174401_j88553635709268_1_alg».proof.Proof.DenseA
import proofs.«174401_j88553635709268_1_alg».proof.Proof.DenseB
import proofs.«174401_j88553635709268_1_alg».proof.Proof.EpiA
import proofs.«174401_j88553635709268_1_alg».proof.Proof.EpiB
import proofs.«174401_j88553635709268_1_alg».proof.Proof.RefForms
import Idealize.ShloMosaic.Lib.StableHlo.Run
import Idealize.ShloMosaic.Lib.Pipeline.Value
import Idealize.ShloMosaic.Lib.ValueIdx

set_option maxRecDepth 16384

noncomputable section

/-
  The value of the kernel program's result, read back through its seven segments.

  The buffers' contents at the segment boundaries are a fold from the launch memory. Reading it at the result buffer,
  from the last boundary back to the first, gives the result as a function of the six argument arrays; each step is
  one of three kinds:
  * a buffer a host stretch writes holds its operation's value of the operands' contents one boundary earlier;
  * a buffer a region writes holds what the region's study says: the dense product of its operands (the two matrix
    product regions) or the entrywise epilogue of its operands (the two epilogue regions);
  * any other buffer holds what it held one boundary earlier.
  Every intermediate is named by the REFERENCE program's stage function of the same arguments, so the last line says
  the kernel's result is the reference's. The graph quantities — source and destination indices, degrees, the edge
  normalisation — are computed once by the kernel and twice by the reference (once per layer): the two copies are the
  same operations of the same argument, and unfolding the stage functions shows it.
-/

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read Cert.LibDense

variable (m : (ℓ : Loc nD τ sig) → Buf (Elt Ideal) ℓ) (ρ : Dev nD → PrngReg) (c : Dev nD)

/-- The launch contents of the six argument arrays on core `c`. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)

/-! ## The first host stretch: the graph quantities, from the edge list alone -/

/-- Source node of every edge. -/
theorem first_src : StableHlo.after hostOps0 (W0 m ρ c) (Proc.devRef .tc main_v1) = val_main_v1 (F := Ideal) (a1 m c) := by
  after_results_simp <;> rfl

/-- Destination node of every edge. -/
theorem first_dst : StableHlo.after hostOps0 (W0 m ρ c) (Proc.devRef .tc main_v3) = val_main_v3 (F := Ideal) (a1 m c) := by
  after_results_simp <;> rfl

/-- The self-loop scale: the squared inverse square root of the degree, per node. -/
theorem first_dd : StableHlo.after hostOps0 (W0 m ρ c) (Proc.devRef .tc main_v16) = val_main_v50 (F := Ideal) (a1 m c) := by
  after_results_simp <;> rfl

/-- The edge normalisation: the product of the two endpoints' inverse square root degrees. -/
theorem first_norm : StableHlo.after hostOps0 (W0 m ρ c) (Proc.devRef .tc main_v31) = val_main_v31 (F := Ideal) (a1 m c) := by
  after_results_simp <;> rfl

/-- The first stretch writes no argument. -/
theorem first_arg0 : StableHlo.after hostOps0 (W0 m ρ c) (Proc.devRef .tc main_arg0) = a0 m c := by
  after_results_simp <;> rfl

/-- The first stretch writes no argument. -/
theorem first_arg2 : StableHlo.after hostOps0 (W0 m ρ c) (Proc.devRef .tc main_arg2) = a2 m c := by
  after_results_simp <;> rfl

/-- The first stretch writes no argument. -/
theorem first_arg3 : StableHlo.after hostOps0 (W0 m ρ c) (Proc.devRef .tc main_arg3) = a3 m c := by
  after_results_simp <;> rfl

/-- The first stretch writes no argument. -/
theorem first_arg4 : StableHlo.after hostOps0 (W0 m ρ c) (Proc.devRef .tc main_arg4) = a4 m c := by
  after_results_simp <;> rfl

/-- The first stretch writes no argument. -/
theorem first_arg5 : StableHlo.after hostOps0 (W0 m ρ c) (Proc.devRef .tc main_arg5) = a5 m c := by
  after_results_simp <;> rfl

/-! ## The first matrix product region -/

/-- A buffer that is not one of the region's arrays is kept. -/
theorem second_keep (b : Ref sig .tc) (hb : ∀ w, Pipeline.arrRef spec0 w ≠ b) :
    W2 m ρ c (Proc.devRef .tc b) = StableHlo.after hostOps0 (W0 m ρ c) (Proc.devRef .tc b) := W2_of_ne m ρ c b hb

/-- The transformed features of the first layer are the reference's `x · W1`. -/
theorem second_feat : W2 m ρ c (Proc.devRef .tc main_v32) = val_main_v4 (F := Ideal) (a0 m c) (a2 m c) :=
  ((W2_arr m ρ c 2).trans (DenseA.final (V1 m ρ) c)).trans
    ((congrArg₂ (denseProd (n0 := 100000) (nk := 128) (n1 := 64)) (first_arg0 m ρ c) (first_arg2 m ρ c)).trans
      (Cert.ReferenceIdeal.Forms.dense1 (a0 m c) (a2 m c)).symm)

theorem second_src : W2 m ρ c (Proc.devRef .tc main_v1) = val_main_v1 (F := Ideal) (a1 m c) :=
  (second_keep m ρ c main_v1 (by decide)).trans (first_src m ρ c)
theorem second_dst : W2 m ρ c (Proc.devRef .tc main_v3) = val_main_v3 (F := Ideal) (a1 m c) :=
  (second_keep m ρ c main_v3 (by decide)).trans (first_dst m ρ c)
theorem second_dd : W2 m ρ c (Proc.devRef .tc main_v16) = val_main_v50 (F := Ideal) (a1 m c) :=
  (second_keep m ρ c main_v16 (by decide)).trans (first_dd m ρ c)
theorem second_norm : W2 m ρ c (Proc.devRef .tc main_v31) = val_main_v31 (F := Ideal) (a1 m c) :=
  (second_keep m ρ c main_v31 (by decide)).trans (first_norm m ρ c)
theorem second_arg3 : W2 m ρ c (Proc.devRef .tc main_arg3) = a3 m c :=
  (second_keep m ρ c main_arg3 (by decide)).trans (first_arg3 m ρ c)
theorem second_arg4 : W2 m ρ c (Proc.devRef .tc main_arg4) = a4 m c :=
  (second_keep m ρ c main_arg4 (by decide)).trans (first_arg4 m ρ c)
theorem second_arg5 : W2 m ρ c (Proc.devRef .tc main_arg5) = a5 m c :=
  (second_keep m ρ c main_arg5 (by decide)).trans (first_arg5 m ρ c)

/-! ## The second host stretch: the first layer's messages, aggregated, and its self-loop term -/

/-- The aggregated messages of the first layer. -/
theorem third_agg : StableHlo.after hostOps1 (W2 m ρ c) (Proc.devRef .tc main_v53) = val_main_v49 (F := Ideal) (a0 m c) (a1 m c) (a2 m c) := by
  after_results_simp
  rw [second_feat m ρ c, second_src m ρ c, second_dst m ρ c, second_norm m ρ c]
  rfl

/-- The self-loop term of the first layer. -/
theorem third_self : StableHlo.after hostOps1 (W2 m ρ c) (Proc.devRef .tc main_v35) = val_main_v53 (F := Ideal) (a0 m c) (a1 m c) (a2 m c) := by
  after_results_simp
  rw [second_feat m ρ c, second_dd m ρ c]
  rfl

/-- The first bias as a one-row matrix. -/
theorem third_bias : StableHlo.after hostOps1 (W2 m ρ c) (Proc.devRef .tc main_v54) = shapeCast S1x64 (a3 m c) shapeCasts_S64_S1x64 := by
  after_results_simp
  rw [second_arg3 m ρ c]
  rfl

/-- The stretch keeps what it does not write. -/
theorem third_keep_src : StableHlo.after hostOps1 (W2 m ρ c) (Proc.devRef .tc main_v1) = val_main_v1 (F := Ideal) (a1 m c) := by
  after_results_simp
  exact second_src m ρ c
theorem third_keep_dst : StableHlo.after hostOps1 (W2 m ρ c) (Proc.devRef .tc main_v3) = val_main_v3 (F := Ideal) (a1 m c) := by
  after_results_simp
  exact second_dst m ρ c
theorem third_keep_dd : StableHlo.after hostOps1 (W2 m ρ c) (Proc.devRef .tc main_v16) = val_main_v50 (F := Ideal) (a1 m c) := by
  after_results_simp
  exact second_dd m ρ c
theorem third_keep_norm : StableHlo.after hostOps1 (W2 m ρ c) (Proc.devRef .tc main_v31) = val_main_v31 (F := Ideal) (a1 m c) := by
  after_results_simp
  exact second_norm m ρ c
theorem third_keep_arg4 : StableHlo.after hostOps1 (W2 m ρ c) (Proc.devRef .tc main_arg4) = a4 m c := by
  after_results_simp
  exact second_arg4 m ρ c
theorem third_keep_arg5 : StableHlo.after hostOps1 (W2 m ρ c) (Proc.devRef .tc main_arg5) = a5 m c := by
  after_results_simp
  exact second_arg5 m ρ c

/-! ## The first epilogue region -/

/-- A vector's one-row cast read at a column is the vector's entry. -/
theorem row_cast_at {n : Nat} (x : (⟨1, ![n]⟩ : Shape).Idx → EReal) (h : (⟨1, ![n]⟩ : Shape).ShapeCasts ⟨2, ![1, n]⟩) (q : Fin n) :
    shapeCast ⟨2, ![1, n]⟩ x h (ix2 (0 : Fin 1) q) = x (ix1 q) :=
  shapeCast_apply x h (ix2 (0 : Fin 1) q) (ix1 q) (by
    rw [Shape.rowMajor_val_two, Shape.rowMajor_val_one]; show q.val = 0 * n + q.val; omega)

theorem fourth_keep (b : Ref sig .tc) (hb : ∀ w, Pipeline.arrRef spec1 w ≠ b) :
    W4 m ρ c (Proc.devRef .tc b) = StableHlo.after hostOps1 (W2 m ρ c) (Proc.devRef .tc b) := W4_of_ne m ρ c b hb

/-- The hidden features: the reference's first layer after its `relu`. -/
theorem fourth_hidden : W4 m ρ c (Proc.devRef .tc main_v55) = val_main_v58 (F := Ideal) (a0 m c) (a1 m c) (a2 m c) (a3 m c) := by
  refine ((W4_arr m ρ c 3).trans (EpiA.final (V3 m ρ) c)).trans ?_
  funext i
  have hA := congrFun (third_agg m ρ c) i
  have hS := congrFun (third_self m ρ c) i
  have hB := congrFun (third_bias m ρ c) (ix2 (0 : Fin 1) (i 1))
  show EpiA.entry (StableHlo.after hostOps1 (W2 m ρ c) (Proc.devRef .tc main_v53) i)
      (StableHlo.after hostOps1 (W2 m ρ c) (Proc.devRef .tc main_v35) i)
      (StableHlo.after hostOps1 (W2 m ρ c) (Proc.devRef .tc main_v54) (ix2 (0 : Fin 1) (i 1))) = _
  rw [hA, hS, hB]
  refine (congrArg (EpiA.entry _ _) (row_cast_at (n := 64) (a3 m c) shapeCasts_S64_S1x64 (i 1))).trans ?_
  exact (Cert.ReferenceIdeal.Forms.hidden_at (a0 m c) (a1 m c) (a2 m c) (a3 m c) i).symm

theorem fourth_src : W4 m ρ c (Proc.devRef .tc main_v1) = val_main_v1 (F := Ideal) (a1 m c) :=
  (fourth_keep m ρ c main_v1 (by decide)).trans (third_keep_src m ρ c)
theorem fourth_dst : W4 m ρ c (Proc.devRef .tc main_v3) = val_main_v3 (F := Ideal) (a1 m c) :=
  (fourth_keep m ρ c main_v3 (by decide)).trans (third_keep_dst m ρ c)
theorem fourth_dd : W4 m ρ c (Proc.devRef .tc main_v16) = val_main_v50 (F := Ideal) (a1 m c) :=
  (fourth_keep m ρ c main_v16 (by decide)).trans (third_keep_dd m ρ c)
theorem fourth_norm : W4 m ρ c (Proc.devRef .tc main_v31) = val_main_v31 (F := Ideal) (a1 m c) :=
  (fourth_keep m ρ c main_v31 (by decide)).trans (third_keep_norm m ρ c)
theorem fourth_arg4 : W4 m ρ c (Proc.devRef .tc main_arg4) = a4 m c :=
  (fourth_keep m ρ c main_arg4 (by decide)).trans (third_keep_arg4 m ρ c)
theorem fourth_arg5 : W4 m ρ c (Proc.devRef .tc main_arg5) = a5 m c :=
  (fourth_keep m ρ c main_arg5 (by decide)).trans (third_keep_arg5 m ρ c)

/-! ## The second matrix product region -/

theorem fifth_keep (b : Ref sig .tc) (hb : ∀ w, Pipeline.arrRef spec2 w ≠ b) :
    W5 m ρ c (Proc.devRef .tc b) = W4 m ρ c (Proc.devRef .tc b) := W5_of_ne m ρ c b hb

/-- The transformed features of the second layer are the reference's `h · W2`. -/
theorem fifth_feat : W5 m ρ c (Proc.devRef .tc main_v56)
    = val_main_v59 (F := Ideal) (a0 m c) (a1 m c) (a2 m c) (a3 m c) (a4 m c) :=
  ((W5_arr m ρ c 2).trans (DenseB.final (V4 m ρ) c)).trans
    ((congrArg₂ (denseProd (n0 := 100000) (nk := 64) (n1 := 16)) (fourth_hidden m ρ c) (fourth_arg4 m ρ c)).trans
      (Cert.ReferenceIdeal.Forms.dense2 (a0 m c) (a1 m c) (a2 m c) (a3 m c) (a4 m c)).symm)

theorem fifth_src : W5 m ρ c (Proc.devRef .tc main_v1) = val_main_v1 (F := Ideal) (a1 m c) :=
  (fifth_keep m ρ c main_v1 (by decide)).trans (fourth_src m ρ c)
theorem fifth_dst : W5 m ρ c (Proc.devRef .tc main_v3) = val_main_v3 (F := Ideal) (a1 m c) :=
  (fifth_keep m ρ c main_v3 (by decide)).trans (fourth_dst m ρ c)
theorem fifth_dd : W5 m ρ c (Proc.devRef .tc main_v16) = val_main_v50 (F := Ideal) (a1 m c) :=
  (fifth_keep m ρ c main_v16 (by decide)).trans (fourth_dd m ρ c)
theorem fifth_norm : W5 m ρ c (Proc.devRef .tc main_v31) = val_main_v31 (F := Ideal) (a1 m c) :=
  (fifth_keep m ρ c main_v31 (by decide)).trans (fourth_norm m ρ c)
theorem fifth_arg5 : W5 m ρ c (Proc.devRef .tc main_arg5) = a5 m c :=
  (fifth_keep m ρ c main_arg5 (by decide)).trans (fourth_arg5 m ρ c)

/-! ## The third host stretch: the second layer's messages, aggregated, and its self-loop term -/

/-- The aggregated messages of the second layer. The reference recomputes the graph quantities for this layer; they
    are the same operations of the edge list as the first layer's. -/
theorem sixth_agg : StableHlo.after hostOps3 (W5 m ρ c) (Proc.devRef .tc main_v77)
    = val_main_v104 (F := Ideal) (a0 m c) (a1 m c) (a2 m c) (a3 m c) (a4 m c) := by
  after_results_simp
  rw [fifth_feat m ρ c, fifth_src m ρ c, fifth_dst m ρ c, fifth_norm m ρ c]
  rfl

/-- The self-loop term of the second layer. -/
theorem sixth_self : StableHlo.after hostOps3 (W5 m ρ c) (Proc.devRef .tc main_v59)
    = val_main_v108 (F := Ideal) (a0 m c) (a1 m c) (a2 m c) (a3 m c) (a4 m c) := by
  after_results_simp
  rw [fifth_feat m ρ c, fifth_dd m ρ c]
  rfl

/-- The second bias as a one-row matrix. -/
theorem sixth_bias : StableHlo.after hostOps3 (W5 m ρ c) (Proc.devRef .tc main_v78) = shapeCast S1x16 (a5 m c) shapeCasts_S16_S1x16 := by
  after_results_simp
  rw [fifth_arg5 m ρ c]
  rfl

/-! ## The second epilogue region: the result -/

/-- The kernel program's result array ends holding the reference's result of the same arguments. -/
theorem result_eq : W7 m ρ c (Proc.devRef .tc main_v79)
    = val_main_v112 (F := Ideal) (a0 m c) (a1 m c) (a2 m c) (a3 m c) (a4 m c) (a5 m c) := by
  refine ((W7_arr m ρ c 3).trans (EpiB.final (V6 m ρ) c)).trans ?_
  funext i
  have hA := congrFun (sixth_agg m ρ c) i
  have hS := congrFun (sixth_self m ρ c) i
  have hB := congrFun (sixth_bias m ρ c) (ix2 (0 : Fin 1) (i 1))
  show EpiB.entry (StableHlo.after hostOps3 (W5 m ρ c) (Proc.devRef .tc main_v77) i)
      (StableHlo.after hostOps3 (W5 m ρ c) (Proc.devRef .tc main_v59) i)
      (StableHlo.after hostOps3 (W5 m ρ c) (Proc.devRef .tc main_v78) (ix2 (0 : Fin 1) (i 1))) = _
  rw [hA, hS, hB]
  refine (congrArg (EpiB.entry _ _) (row_cast_at (n := 16) (a5 m c) shapeCasts_S16_S1x16 (i 1))).trans ?_
  exact (Cert.ReferenceIdeal.Forms.output_at (a0 m c) (a1 m c) (a2 m c) (a3 m c) (a4 m c) (a5 m c) i).symm

end Cert.KernelIdeal.Fold

end
-- ==== Proof.lean ====
/-
  A two-layer graph convolution: the kernel program against its reference, on the extended reals.

  Both programs compute, for node features `x`, an edge list, weights `W1`, `W2` and biases `b1`, `b2`:
  the degree of every node (one plus the number of edges arriving at it), `d` its inverse square root, the edge
  normalisation `d[src] · d[dst]`; then per layer `h = x · W`, the messages `norm · h[src]` added up at their
  destinations, plus the self-loop term `h · d²`, plus the bias, the first layer clamped at zero from below. The
  kernel program runs the two feature transforms and the two epilogues (sum of the three terms, and the clamp) as
  four tiled regions over twenty row blocks each, with the gathers and scatter-additions as host operations between
  them; the reference is host operations throughout.

  At the ideal instance each product region leaves the dense product of its operand arrays in its result (a product
  into a zero accumulator, block by block, is the row block of one whole product), each epilogue region leaves the
  entrywise sum in the reference's own order of additions, and the host operations between them are the reference's,
  operation for operation. Reading the kernel program's buffers back from the result through the seven segments
  therefore names every intermediate by the reference's own stage function, and the two results are one function of
  the arguments. No law beyond the dense product's meaning is used, so the inputs' finiteness is never opened.

  The three frames are the generated ones (the reference's is its generated run with the result dropped); the ideal
  pass rewrote nothing, so the preservation claim is trivial.
-/
import proofs.«174401_j88553635709268_1_alg».proof.Defs
import proofs.«174401_j88553635709268_1_alg».proof.Proof.Gen.Kernel
import proofs.«174401_j88553635709268_1_alg».proof.Proof.Gen.Kernel.Skeleton
import proofs.«174401_j88553635709268_1_alg».proof.Proof.Gen.Kernel.Launch
import proofs.«174401_j88553635709268_1_alg».proof.Proof.Gen.Kernel.Points
import proofs.«174401_j88553635709268_1_alg».proof.Proof.Gen.Kernel.Frame
import proofs.«174401_j88553635709268_1_alg».proof.Proof.Gen.KernelIdeal
import proofs.«174401_j88553635709268_1_alg».proof.Proof.Gen.KernelIdeal.Skeleton
import proofs.«174401_j88553635709268_1_alg».proof.Proof.Gen.KernelIdeal.Launch
import proofs.«174401_j88553635709268_1_alg».proof.Proof.Gen.KernelIdeal.Points
import proofs.«174401_j88553635709268_1_alg».proof.Proof.Gen.KernelIdeal.Frame
import proofs.«174401_j88553635709268_1_alg».proof.Proof.Gen.ReferenceIdeal
import proofs.«174401_j88553635709268_1_alg».proof.Proof.Gen.Pre_finite_inputs
import proofs.«174401_j88553635709268_1_alg».proof.Proof.Gen.ReferenceIdeal.Run
import proofs.«174401_j88553635709268_1_alg».proof.Proof.Gen.ReferenceIdeal.Read
import proofs.«174401_j88553635709268_1_alg».proof.Proof.WholeRun
import proofs.«174401_j88553635709268_1_alg».proof.Proof.Fold
import Idealize.ShloMosaic.Adequacy
import Idealize.ShloMosaic.Init

noncomputable section

namespace Cert.Proof

open Idealize.ShloMosaic Idealize.SL.Sem

/-- The word-level kernel program runs, faults nowhere, and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's function of the arguments in
    their result arrays, and with their arguments as launched. -/
theorem algebraic : Cert.algebraic_KernelIdeal_ReferenceIdeal := by
  intro m ρ m' ρ' _ hagree
  refine ⟨fun c => Cert.ReferenceIdeal.Read.val_main_v112 (F := Ideal) (Cert.KernelIdeal.Fold.a0 m c)
    (Cert.KernelIdeal.Fold.a1 m c) (Cert.KernelIdeal.Fold.a2 m c) (Cert.KernelIdeal.Fold.a3 m c)
    (Cert.KernelIdeal.Fold.a4 m c) (Cert.KernelIdeal.Fold.a5 m c), ?_, ?_⟩
  · refine (θ_run Cert.KernelIdeal.defs _ _).mono (fun r h c => ?_) (Cert.KernelIdeal.Whole.run_all (F := Ideal) m ρ)
    exact ⟨(Cert.KernelIdeal.Whole.final_at m ρ r h c Cert.KernelIdeal.main_v79 (by decide)).trans (Cert.KernelIdeal.Fold.result_eq m ρ c),
      (Cert.KernelIdeal.Whole.final_at m ρ r h c Cert.KernelIdeal.main_arg0 (by decide)).trans (Cert.KernelIdeal.Gen.W7_main_arg0 m ρ c),
      (Cert.KernelIdeal.Whole.final_at m ρ r h c Cert.KernelIdeal.main_arg1 (by decide)).trans (Cert.KernelIdeal.Gen.W7_main_arg1 m ρ c),
      (Cert.KernelIdeal.Whole.final_at m ρ r h c Cert.KernelIdeal.main_arg2 (by decide)).trans (Cert.KernelIdeal.Gen.W7_main_arg2 m ρ c),
      (Cert.KernelIdeal.Whole.final_at m ρ r h c Cert.KernelIdeal.main_arg3 (by decide)).trans (Cert.KernelIdeal.Gen.W7_main_arg3 m ρ c),
      (Cert.KernelIdeal.Whole.final_at m ρ r h c Cert.KernelIdeal.main_arg4 (by decide)).trans (Cert.KernelIdeal.Gen.W7_main_arg4 m ρ c),
      (Cert.KernelIdeal.Whole.final_at m ρ r h c Cert.KernelIdeal.main_arg5 (by decide)).trans (Cert.KernelIdeal.Gen.W7_main_arg5 m ρ c)⟩
  · refine (θ_run Cert.ReferenceIdeal.defs _ _).mono (fun r h c => ⟨?_, (h c).2⟩)
      (Cert.ReferenceIdeal.Value.run (F := Ideal) m' ρ')
    obtain ⟨e0, e1, e2, e3, e4, e5⟩ := hagree c
    rw [(h c).1, Cert.ReferenceIdeal.Read.val_main_v112_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
